-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x768x64x64 : Shape := ⟨4, ![16, 768, 64, 64]⟩
abbrev S16x1024 : Shape := ⟨2, ![16, 1024]⟩
abbrev S768x1024 : Shape := ⟨2, ![768, 1024]⟩
abbrev S768 : Shape := ⟨1, ![768]⟩
abbrev S2304x768 : Shape := ⟨2, ![2304, 768]⟩
abbrev S2304 : Shape := ⟨1, ![2304]⟩
abbrev S768x768 : Shape := ⟨2, ![768, 768]⟩
abbrev S_ : Shape := ⟨0, ![]⟩

class Facts : Prop where
  bcast_S_S16x768x64x64 : S_.BroadcastsInDim S16x768x64x64 (![] : Fin 0 → Fin S16x768x64x64.rank)
  reducesTo_S16x768x64x64_S_d0_1_2_3 : S16x768x64x64.ReducesTo [0, 1, 2, 3] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S768x1024 : S_.BroadcastsInDim S768x1024 (![] : Fin 0 → Fin S768x1024.rank)
  reducesTo_S768x1024_S_d0_1 : S768x1024.ReducesTo [0, 1] S_
  bcast_S_S768 : S_.BroadcastsInDim S768 (![] : Fin 0 → Fin S768.rank)
  reducesTo_S768_S_d0 : S768.ReducesTo [0] S_
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_

variable [Facts]

def fn_part3 {F : FTy → Type} [FloatOps F] (main_arg11 : FVec F S768 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  main_v58

def fn_part2 {F : FTy → Type} [FloatOps F] (main_arg7 : FVec F S768 .f32) (main_arg8 : FVec F S768x768 .f32) (main_arg9 : FVec F S768 .f32) (main_arg10 : FVec F S768 .f32) (main_arg11 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768x768 .f32 := Host.absf main_arg8
  let main_cst_14 : FVec F S_ .f32 := constant S_ .f32 0x7F800000#32
  let main_v40 : FVec F S768x768 .f32 := broadcastInDim S768x768 ![] bcast_S_S768x768 main_cst_14
  let main_v41 : IVec S768x768 1 := cmpf .olt main_v39 main_v40
  let main_c_15 : IVec S_ 1 := constantI S_ 1 1#1
  let main_v42 : IVec S_ 1 := (fun x v => Host.reduce IntOp.andi x v reducesTo_S768x768_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_v48 main_v49 main_v50

def fn_part1 {F : FTy → Type} [FloatOps F] (main_arg4 : FVec F S2304x768 .f32) (main_arg5 : FVec F S2304 .f32) (main_arg6 : FVec F S768x768 .f32) (main_arg7 : FVec F S768 .f32) (main_arg8 : FVec F S768x768 .f32) (main_arg9 : FVec F S768 .f32) (main_arg10 : FVec F S768 .f32) (main_arg11 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S2304x768 .f32 := Host.absf main_arg4
  let main_cst_6 : FVec F S_ .f32 := constant S_ .f32 0x7F800000#32
  let main_v20 : FVec F S2304x768 .f32 := broadcastInDim S2304x768 ![] bcast_S_S2304x768 main_cst_6
  let main_v21 : IVec S2304x768 1 := cmpf .olt main_v19 main_v20
  let main_c_7 : IVec S_ 1 := constantI S_ 1 1#1
  let main_v22 : IVec S_ 1 := (fun x v => Host.reduce IntOp.andi x v reducesTo_S2304x768_S_d0_1 h_S_) main_v21 main_c_7
  let main_v23 : IVec S_ 1 := andi main_v18 main_v22
  let main_v24 : FVec F S2304 .f32 := Host.absf main_arg5
  let main_cst_8 : FVec F S_ .f32 := constant S_ .f32 0x7F800000#32
  let main_v25 : FVec F S2304 .f32 := broadcastInDim S2304 ![] bcast_S_S2304 main_cst_8
  let main_v26 : IVec S2304 1 := cmpf .olt main_v24 main_v25
  let main_c_9 : IVec S_ 1 := constantI S_ 1 1#1
  let main_v27 : IVec S_ 1 := (fun x v => Host.reduce IntOp.andi x v reducesTo_S2304_S_d0 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x768x64x64 .f32) (main_arg1 : FVec F S16x1024 .f32) (main_arg2 : FVec F S768x1024 .f32) (main_arg3 : FVec F S768 .f32) (main_arg4 : FVec F S2304x768 .f32) (main_arg5 : FVec F S2304 .f32) (main_arg6 : FVec F S768x768 .f32) (main_arg7 : FVec F S768 .f32) (main_arg8 : FVec F S768x768 .f32) (main_arg9 : FVec F S768 .f32) (main_arg10 : FVec F S768 .f32) (main_arg11 : FVec F S768 .f32) : IVec S_ 1 :=
  let main_v0 : FVec F S16x768x64x64 .f32 := Host.absf main_arg0
  let main_cst : FVec F S_ .f32 := constant S_ .f32 0x7F800000#32
  let main_v1 : FVec F S16x768x64x64 .f32 := broadcastInDim S16x768x64x64 ![] bcast_S_S16x768x64x64 main_cst
  let main_v2 : IVec S16x768x64x64 1 := cmpf .olt main_v0 main_v1
  let main_c : IVec S_ 1 := constantI S_ 1 1#1
  let main_v3 : IVec S_ 1 := (fun x v => Host.reduce IntOp.andi x v reducesTo_S16x768x64x64_S_d0_1_2_3 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S768x1024 .f32 := Host.absf main_arg2
  let main_cst_2 : FVec F S_ .f32 := constant S_ .f32 0x7F800000#32
  let main_v10 : FVec F S768x1024 .f32 := broadcastInDim S768x1024 ![] bcast_S_S768x1024 main_cst_2
  let main_v11 : IVec S768x1024 1 := cmpf .olt main_v9 main_v10
  let main_c_3 : IVec S_ 1 := constantI S_ 1 1#1
  let main_v12 : IVec S_ 1 := (fun x v => Host.reduce IntOp.andi x v reducesTo_S768x1024_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_arg9 main_arg10 main_arg11 main_v13 main_v16
-- ==== Kernel.lean ====
abbrev S16x768x64x64 : Shape := ⟨4, ![16, 768, 64, 64]⟩
abbrev S16x1024 : Shape := ⟨2, ![16, 1024]⟩
abbrev S768x1024 : Shape := ⟨2, ![768, 1024]⟩
abbrev S768 : Shape := ⟨1, ![768]⟩
abbrev S2304x768 : Shape := ⟨2, ![2304, 768]⟩
abbrev S2304 : Shape := ⟨1, ![2304]⟩
abbrev S768x768 : Shape := ⟨2, ![768, 768]⟩
abbrev S1024x768 : Shape := ⟨2, ![1024, 768]⟩
abbrev S16x768 : Shape := ⟨2, ![16, 768]⟩
abbrev S1x768 : Shape := ⟨2, ![1, 768]⟩
abbrev S16x768x4096 : Shape := ⟨3, ![16, 768, 4096]⟩
abbrev S16x768x1 : Shape := ⟨3, ![16, 768, 1]⟩
abbrev S768x1 : Shape := ⟨2, ![768, 1]⟩
abbrev S1x768x2048 : Shape := ⟨3, ![1, 768, 2048]⟩
abbrev S1x768x1 : Shape := ⟨3, ![1, 768, 1]⟩
abbrev S768x2048 : Shape := ⟨2, ![768, 2048]⟩
abbrev S2048 : Shape := ⟨1, ![2048]⟩
abbrev S1x2048 : Shape := ⟨2, ![1, 2048]⟩

abbrev nBuf : Space → Nat
  | .hbm => 40
  | .vmem => 8
  | .smem => 0
  | _ => 0

abbrev bufTy : (tb : Table) → Fin (tcTables nBuf tb) → BufTy
  | .hbm, ⟨0, _⟩ => ⟨S16x768x64x64, .f32⟩
  | .hbm, ⟨1, _⟩ => ⟨S16x1024, .f32⟩
  | .hbm, ⟨2, _⟩ => ⟨S768x1024, .f32⟩
  | .hbm, ⟨3, _⟩ => ⟨S768, .f32⟩
  | .hbm, ⟨4, _⟩ => ⟨S2304x768, .f32⟩
  | .hbm, ⟨5, _⟩ => ⟨S2304, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S1024x768, .f32⟩
  | .hbm, ⟨13, _⟩ => ⟨S16x768, .f32⟩
  | .hbm, ⟨14, _⟩ => ⟨S1x768, .f32⟩
  | .hbm, ⟨15, _⟩ => ⟨S16x768, .f32⟩
  | .hbm, ⟨16, _⟩ => ⟨S16x768, .f32⟩
  | .hbm, ⟨17, _⟩ => ⟨S768x768, .f32⟩
  | .hbm, ⟨18, _⟩ => ⟨S768, .f32⟩
  | .hbm, ⟨19, _⟩ => ⟨S768x768, .f32⟩
  | .hbm, ⟨20, _⟩ => ⟨S16x768, .f32⟩
  | .hbm, ⟨21, _⟩ => ⟨S1x768, .f32⟩
  | .hbm, ⟨22, _⟩ => ⟨S16x768, .f32⟩
  | .hbm, ⟨23, _⟩ => ⟨S16x768, .f32⟩
  | .hbm, ⟨24, _⟩ => ⟨S768x768, .f32⟩
  | .hbm, ⟨25, _⟩ => ⟨S16x768, .f32⟩
  | .hbm, ⟨26, _⟩ => ⟨S1x768, .f32⟩
  | .hbm, ⟨27, _⟩ => ⟨S16x768, .f32⟩
  | .hbm, ⟨28, _⟩ => ⟨S16x768, .f32⟩
  | .hbm, ⟨29, _⟩ => ⟨S768x768, .f32⟩
  | .hbm, ⟨30, _⟩ => ⟨S16x768, .f32⟩
  | .hbm, ⟨31, _⟩ => ⟨S1x768, .f32⟩
  | .hbm, ⟨32, _⟩ => ⟨S16x768, .f32⟩
  | .hbm, ⟨33, _⟩ => ⟨S16x768, .f32⟩
  | .hbm, ⟨34, _⟩ => ⟨S16x768x4096, .f32⟩
  | .hbm, ⟨35, _⟩ => ⟨S16x768x1, .f32⟩
  | .hbm, ⟨36, _⟩ => ⟨S768x1, .f32⟩
  | .hbm, ⟨37, _⟩ => ⟨S768x1, .f32⟩
  | .hbm, ⟨38, _⟩ => ⟨S16x768x4096, .f32⟩
  | .hbm, ⟨39, _⟩ => ⟨S16x768x64x64, .f32⟩
  | .local _ .vmem, ⟨0, _⟩ => ⟨S1x768x2048, .f32⟩
  | .local _ .vmem, ⟨1, _⟩ => ⟨S1x768x2048, .f32⟩
  | .local _ .vmem, ⟨2, _⟩ => ⟨S1x768x1, .f32⟩
  | .local _ .vmem, ⟨3, _⟩ => ⟨S1x768x1, .f32⟩
  | .local _ .vmem, ⟨4, _⟩ => ⟨S768x1, .f32⟩
  | .local _ .vmem, ⟨5, _⟩ => ⟨S768x1, .f32⟩
  | .local _ .vmem, ⟨6, _⟩ => ⟨S1x768x2048, .f32⟩
  | .local _ .vmem, ⟨7, _⟩ => ⟨S1x768x2048, .f32⟩
  | _, _ => ⟨S16x768x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S768x1024_S1024x768_1_0 : S768x1024.Transposes [1, 0] S1024x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  slices_S2304x768_S768x768_1536_0 : S2304x768.Slices ![1536, 0] S768x768
  slices_S2304_S768_1536 : S2304.Slices ![1536] S768
  transposes_S768x768_S768x768_1_0 : S768x768.Transposes [1, 0] S768x768
  shapeCasts_S16x768x64x64_S16x768x4096 : S16x768x64x64.ShapeCasts S16x768x4096
  shapeCasts_S16x768_S16x768x1 : S16x768.ShapeCasts S16x768x1
  shapeCasts_S768_S768x1 : S768.ShapeCasts S768x1
  inb_S1x768x2048_S1x768x2048_0_0_0 : ∀ a, (![0, 0, 0] : Fin 3 → Nat) a + S1x768x2048.size a ≤ S1x768x2048.size a
  h_S1x768x2048 : 0 < S1x768x2048.numel
  shapeCasts_S1x768x2048_S768x2048 : S1x768x2048.ShapeCasts S768x2048
  inb_S1x768x1_S1x768x1_0_0_0 : ∀ a, (![0, 0, 0] : Fin 3 → Nat) a + S1x768x1.size a ≤ S1x768x1.size a
  h_S1x768x1 : 0 < S1x768x1.numel
  shapeCasts_S1x768x1_S768x1 : S1x768x1.ShapeCasts S768x1
  broadcasts_S768x1_S768x2048 : S768x1.Broadcasts S768x2048
  reduces_S768x2048_S2048 : S768x2048.Reduces [0] S2048
  shapeCasts_S2048_S1x2048 : S2048.ShapeCasts S1x2048
  broadcasts_S1x2048_S768x2048 : S1x2048.Broadcasts S768x2048
  inb_S768x1_S768x1_0_0 : ∀ a, (![0, 0] : Fin 2 → Nat) a + S768x1.size a ≤ S768x1.size a
  h_S768x1 : 0 < S768x1.numel
  shapeCasts_S768x1_S768x1 : S768x1.ShapeCasts S768x1
  shapeCasts_S768x2048_S1x768x2048 : S768x2048.ShapeCasts S1x768x2048
  shapeCasts_S16x768x4096_S16x768x64x64 : S16x768x4096.ShapeCasts S16x768x64x64
  dot_S16x1024_S1024x768_S16x768_1_0_0_1_n_n_wf : DotDims.WF S16x1024 S1024x768 S16x768 [1] [0] [0] [1] [] []
  dot_S16x768_S768x768_S16x768_1_0_0_1_n_n_wf : DotDims.WF S16x768 S768x768 S16x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x2048.size a ≤ S16x768x4096.size a
  hwx0_0 : ∀ i : grid0.Coords, EltTy.bits .f32 = 32 ∨ (Rect.block (s := S16x768x4096) S1x768x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x1.size a ≤ S16x768x1.size a
  hwx0_1 : ∀ i : grid0.Coords, EltTy.bits .f32 = 32 ∨ (Rect.block (s := S16x768x1) S1x768x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1.size a ≤ S768x1.size a
  hwx0_2 : ∀ i : grid0.Coords, EltTy.bits .f32 = 32 ∨ (Rect.block (s := S768x1) S768x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1.size a ≤ S768x1.size a
  hwx0_3 : ∀ i : grid0.Coords, EltTy.bits .f32 = 32 ∨ (Rect.block (s := S768x1) S768x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768x2048.size a ≤ S16x768x4096.size a
  hwx0_4 : ∀ i : grid0.Coords, EltTy.bits .f32 = 32 ∨ (Rect.block (s := S16x768x4096) S1x768x2048.size (cc0_transform_4 i) (hinb0_4 i)).WholeWords (EltTy.packing .f32)

variable [Facts₀]

def dot_S16x1024_S1024x768_S16x768_1_0_0_1_n_n : DotDims S16x1024 S1024x768 S16x768 where
  lhsContracting := [1]
  rhsContracting := [0]
  lhsNonContracting := [0]
  rhsNonContracting := [1]
  lhsBatch := []
  rhsBatch := []
  wf := dot_S16x1024_S1024x768_S16x768_1_0_0_1_n_n_wf
def dot_S16x768_S768x768_S16x768_1_0_0_1_n_n : DotDims S16x768 S768x768 S16x768 where
  lhsContracting := [1]
  rhsContracting := [0]
  lhsNonContracting := [0]
  rhsNonContracting := [1]
  lhsBatch := []
  rhsBatch := []
  wf := dot_S16x768_S768x768_S16x768_1_0_0_1_n_n_wf

abbrev win0_0 : Pipeline.Window sig grid0 :=
  Pipeline.Window.ofSpec (Memref.whole main_v22) S1x768x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x768x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S768x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S768x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x768x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x768x64x64 : Shape := ⟨4, ![16, 768, 64, 64]⟩
abbrev S16x1024 : Shape := ⟨2, ![16, 1024]⟩
abbrev S768x1024 : Shape := ⟨2, ![768, 1024]⟩
abbrev S768 : Shape := ⟨1, ![768]⟩
abbrev S2304x768 : Shape := ⟨2, ![2304, 768]⟩
abbrev S2304 : Shape := ⟨1, ![2304]⟩
abbrev S768x768 : Shape := ⟨2, ![768, 768]⟩
abbrev S16x768x4096 : Shape := ⟨3, ![16, 768, 4096]⟩
abbrev S16x4096x768 : Shape := ⟨3, ![16, 4096, 768]⟩
abbrev S1024x768 : Shape := ⟨2, ![1024, 768]⟩
abbrev S16x768 : Shape := ⟨2, ![16, 768]⟩
abbrev S1x768 : Shape := ⟨2, ![1, 768]⟩
abbrev S16x1x768 : Shape := ⟨3, ![16, 1, 768]⟩
abbrev S_ : Shape := ⟨0, ![]⟩
abbrev S16x4096 : Shape := ⟨2, ![16, 4096]⟩
abbrev S16x4096x1 : Shape := ⟨3, ![16, 4096, 1]⟩
abbrev S1x1x768 : Shape := ⟨3, ![1, 1, 768]⟩

abbrev nBuf : Space → Nat
  | .hbm => 70
  | .vmem => 0
  | .smem => 0
  | _ => 0

abbrev bufTy : (tb : Table) → Fin (tcTables nBuf tb) → BufTy
  | .hbm, ⟨0, _⟩ => ⟨S16x768x64x64, .f32⟩
  | .hbm, ⟨1, _⟩ => ⟨S16x1024, .f32⟩
  | .hbm, ⟨2, _⟩ => ⟨S768x1024, .f32⟩
  | .hbm, ⟨3, _⟩ => ⟨S768, .f32⟩
  | .hbm, ⟨4, _⟩ => ⟨S2304x768, .f32⟩
  | .hbm, ⟨5, _⟩ => ⟨S2304, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S16x768x4096, .f32⟩
  | .hbm, ⟨13, _⟩ => ⟨S16x4096x768, .f32⟩
  | .hbm, ⟨14, _⟩ => ⟨S1024x768, .f32⟩
  | .hbm, ⟨15, _⟩ => ⟨S16x768, .f32⟩
  | .hbm, ⟨16, _⟩ => ⟨S1x768, .f32⟩
  | .hbm, ⟨17, _⟩ => ⟨S16x768, .f32⟩
  | .hbm, ⟨18, _⟩ => ⟨S16x768, .f32⟩
  | .hbm, ⟨19, _⟩ => ⟨S768x768, .f32⟩
  | .hbm, ⟨20, _⟩ => ⟨S768, .f32⟩
  | .hbm, ⟨21, _⟩ => ⟨S768x768, .f32⟩
  | .hbm, ⟨22, _⟩ => ⟨S16x768, .f32⟩
  | .hbm, ⟨23, _⟩ => ⟨S1x768, .f32⟩
  | .hbm, ⟨24, _⟩ => ⟨S16x768, .f32⟩
  | .hbm, ⟨25, _⟩ => ⟨S16x768, .f32⟩
  | .hbm, ⟨26, _⟩ => ⟨S768x768, .f32⟩
  | .hbm, ⟨27, _⟩ => ⟨S16x768, .f32⟩
  | .hbm, ⟨28, _⟩ => ⟨S1x768, .f32⟩
  | .hbm, ⟨29, _⟩ => ⟨S16x768, .f32⟩
  | .hbm, ⟨30, _⟩ => ⟨S16x768, .f32⟩
  | .hbm, ⟨31, _⟩ => ⟨S768x768, .f32⟩
  | .hbm, ⟨32, _⟩ => ⟨S16x768, .f32⟩
  | .hbm, ⟨33, _⟩ => ⟨S1x768, .f32⟩
  | .hbm, ⟨34, _⟩ => ⟨S16x768, .f32⟩
  | .hbm, ⟨35, _⟩ => ⟨S16x768, .f32⟩
  | .hbm, ⟨36, _⟩ => ⟨S16x1x768, .f32⟩
  | .hbm, ⟨37, _⟩ => ⟨S16x4096x768, .f32⟩
  | .hbm, ⟨38, _⟩ => ⟨S16x4096x768, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S_, .f32⟩
  | .hbm, ⟨43, _⟩ => ⟨S16x4096x1, .f32⟩
  | .hbm, ⟨44, _⟩ => ⟨S16x4096x1, .f32⟩
  | .hbm, ⟨45, _⟩ => ⟨S16x4096x768, .f32⟩
  | .hbm, ⟨46, _⟩ => ⟨S16x4096x768, .f32⟩
  | .hbm, ⟨47, _⟩ => ⟨S16x4096x768, .f32⟩
  | .hbm, ⟨48, _⟩ => ⟨S_, .f32⟩
  | .hbm, ⟨49, _⟩ => ⟨S16x4096, .f32⟩
  | .hbm, ⟨50, _⟩ => ⟨S16x4096x1, .f32⟩
  | .hbm, ⟨51, _⟩ => ⟨S_, .f32⟩
  | .hbm, ⟨52, _⟩ => ⟨S16x4096x1, .f32⟩
  | .hbm, ⟨53, _⟩ => ⟨S16x4096x1, .f32⟩
  | .hbm, ⟨54, _⟩ => ⟨S16x4096x768, .f32⟩
  | .hbm, ⟨55, _⟩ => ⟨S16x4096x768, .f32⟩
  | .hbm, ⟨56, _⟩ => ⟨S_, .f32⟩
  | .hbm, ⟨57, _⟩ => ⟨S16x4096x1, .f32⟩
  | .hbm, ⟨58, _⟩ => ⟨S16x4096x1, .f32⟩
  | .hbm, ⟨59, _⟩ => ⟨S16x4096x1, .f32⟩
  | .hbm, ⟨60, _⟩ => ⟨S16x4096x768, .f32⟩
  | .hbm, ⟨61, _⟩ => ⟨S16x4096x768, .f32⟩
  | .hbm, ⟨62, _⟩ => ⟨S1x1x768, .f32⟩
  | .hbm, ⟨63, _⟩ => ⟨S16x4096x768, .f32⟩
  | .hbm, ⟨64, _⟩ => ⟨S16x4096x768, .f32⟩
  | .hbm, ⟨65, _⟩ => ⟨S1x1x768, .f32⟩
  | .hbm, ⟨66, _⟩ => ⟨S16x4096x768, .f32⟩
  | .hbm, ⟨67, _⟩ => ⟨S16x4096x768, .f32⟩
  | .hbm, ⟨68, _⟩ => ⟨S16x768x4096, .f32⟩
  | .hbm, ⟨69, _⟩ => ⟨S16x768x64x64, .f32⟩
  | _, _ => ⟨S16x768x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_cst_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  shapeCasts_S16x768x64x64_S16x768x4096 : S16x768x64x64.ShapeCasts S16x768x4096
  transposes_S16x768x4096_S16x4096x768_0_2_1 : S16x768x4096.Transposes [0, 2, 1] S16x4096x768
  transposes_S768x1024_S1024x768_1_0 : S768x1024.Transposes [1, 0] S1024x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  slices_S2304x768_S768x768_1536_0 : S2304x768.Slices ![1536, 0] S768x768
  slices_S2304_S768_1536 : S2304.Slices ![1536] S768
  transposes_S768x768_S768x768_1_0 : S768x768.Transposes [1, 0] S768x768
  bcast_S16x768_S16x1x768_0_2 : S16x768.BroadcastsInDim S16x1x768 (![0, 2] : Fin 2 → Fin S16x1x768.rank)
  bcast_S16x1x768_S16x4096x768_0_1_2 : S16x1x768.BroadcastsInDim S16x4096x768 (![0, 1, 2] : Fin 3 → Fin S16x4096x768.rank)
  reducesTo_S16x4096x768_S16x4096_d2 : S16x4096x768.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x768_0_1_2 : S16x4096x1.BroadcastsInDim S16x4096x768 (![0, 1, 2] : Fin 3 → Fin S16x4096x768.rank)
  bcast_S768_S1x1x768_2 : S768.BroadcastsInDim S1x1x768 (![2] : Fin 1 → Fin S1x1x768.rank)
  bcast_S1x1x768_S16x4096x768_0_1_2 : S1x1x768.BroadcastsInDim S16x4096x768 (![0, 1, 2] : Fin 3 → Fin S16x4096x768.rank)
  transposes_S16x4096x768_S16x768x4096_0_2_1 : S16x4096x768.Transposes [0, 2, 1] S16x768x4096
  shapeCasts_S16x768x4096_S16x768x64x64 : S16x768x4096.ShapeCasts S16x768x64x64
  dot_S16x1024_S1024x768_S16x768_1_0_0_1_n_n_wf : DotDims.WF S16x1024 S1024x768 S16x768 [1] [0] [0] [1] [] []
  dot_S16x768_S768x768_S16x768_1_0_0_1_n_n_wf : DotDims.WF S16x768 S768x768 S16x768 [1] [0] [0] [1] [] []

variable [Facts₀]

def dot_S16x1024_S1024x768_S16x768_1_0_0_1_n_n : DotDims S16x1024 S1024x768 S16x768 where
  lhsContracting := [1]
  rhsContracting := [0]
  lhsNonContracting := [0]
  rhsNonContracting := [1]
  lhsBatch := []
  rhsBatch := []
  wf := dot_S16x1024_S1024x768_S16x768_1_0_0_1_n_n_wf
def dot_S16x768_S768x768_S16x768_1_0_0_1_n_n : DotDims S16x768 S768x768 S16x768 where
  lhsContracting := [1]
  rhsContracting := [0]
  lhsNonContracting := [0]
  rhsNonContracting := [1]
  lhsBatch := []
  rhsBatch := []
  wf := dot_S16x768_S768x768_S16x768_1_0_0_1_n_n_wf

class Facts : Prop extends Facts₀ where

variable [Facts]
-- ==== Proof.LibLayerNorm.lean ====
/-
  Layer normalisation of one column of real numbers, read in the extended reals: the one-pass form
  (mean and mean of squares from two sums, variance = E[x²] − E[x]²) and the two-pass form
  (mean first, then the mean of the squared deviations) are the same numbers.

  The mean needs no hypothesis: dividing a sum by a nonzero real N is multiplying it by 1/N on every
  extended real.  The variance does: expanding (x − μ)² and cancelling N·μ² against μ·Σx is arithmetic of
  real numbers, and fails at an infinity, so the column is assumed to consist of reals.
-/
import Idealize.ShloMosaic.PureOps.Ideal

noncomputable section

namespace LayerNormLaw

open Idealize.ShloMosaic

/-- A finite sum of reals, each read as an extended real, is the real sum read as an extended real. -/
theorem coe_sum {ι : Type} (s : Finset ι) (f : ι → ℝ) :
    ∑ k ∈ s, ((f k : ℝ) : EReal) = ((∑ k ∈ s, f k : ℝ) : EReal) := by
  classical
  refine Finset.induction_on s (by simp) ?_
  intro a s ha ih
  rw [Finset.sum_insert ha, Finset.sum_insert ha, ih, EReal.coe_add]

/-- Over the reals: with S = Σ x, M = S/N and N the number of terms, the mean of the squared deviations from M
    is the mean of the squares less M². -/
theorem var_real {n : ℕ} (N S M : ℝ) (hN : N ≠ 0) (hn : (n : ℝ) = N) (x : Fin n → ℝ)
    (hS : ∑ k, x k = S) (hM : M = S * (1 / N)) :
    (∑ k, (x k - M) * (x k - M)) * (1 / N) = (∑ k, x k * x k) * (1 / N) - M * M := by
  have e : ∀ k, (x k - M) * (x k - M) = x k * x k - 2 * M * x k + M * M := fun k => by ring
  simp only [e]
  rw [Finset.sum_add_distrib, Finset.sum_sub_distrib, ← Finset.mul_sum, hS, Finset.sum_const, Finset.card_univ,
    Fintype.card_fin, nsmul_eq_mul, hn]
  have hSM : S = M * N := by rw [hM]; field_simp
  rw [hSM]
  field_simp
  ring

/-- The mean, on every extended real: (0 + Σ x) / N is (Σ x) · (1/N). -/
theorem mean_eq {n : ℕ} (N : ℝ) (hN : N ≠ 0) (x : Fin n → EReal) :
    Ideal.div (0 + ∑ k, x k) (N : EReal) = (∑ k, x k) * ((1 / N : ℝ) : EReal) := by
  rw [zero_add, Ideal.div_coe hN]

/-- The variance of a column of reals: the two-pass mean of squared deviations from μ = (Σ x)·(1/N) is the
    one-pass (Σ x²)·(1/N) − μ·μ. -/
theorem var_eq {n : ℕ} (N : ℝ) (hN : N ≠ 0) (hn : (n : ℝ) = N) (x : Fin n → EReal) (xr : Fin n → ℝ)
    (hx : ∀ k, x k = ((xr k : ℝ) : EReal)) :
    Ideal.div (0 + ∑ k, (x k - (∑ k, x k) * ((1 / N : ℝ) : EReal)) * (x k - (∑ k, x k) * ((1 / N : ℝ) : EReal))) (N : EReal)
      = (∑ k, x k * x k) * ((1 / N : ℝ) : EReal)
        - ((∑ k, x k) * ((1 / N : ℝ) : EReal)) * ((∑ k, x k) * ((1 / N : ℝ) : EReal)) := by
  obtain rfl : x = fun k => ((xr k : ℝ) : EReal) := funext hx
  rw [zero_add, Ideal.div_coe hN]
  simp only [coe_sum, ← EReal.coe_mul, ← EReal.coe_sub]
  exact congrArg _ (var_real N (∑ k, xr k) ((∑ k, xr k) * (1 / N)) hN hn xr rfl rfl)

/-- One column normalised in one pass: the mean is (Σ x)·inv, the variance (Σ x²)·inv less the mean's square; entry c
    is ((x c − mean) · rsqrt(variance + eps)) · g c + b c. -/
def onePass {n : ℕ} (inv eps : EReal) (x g b : Fin n → EReal) (c : Fin n) : EReal :=
  (x c - (∑ k, x k) * inv)
      * Ideal.rsqrt ((∑ k, x k * x k) * inv - (∑ k, x k) * inv * ((∑ k, x k) * inv) + eps) * g c + b c

/-- The same column normalised in two passes: the mean is (0 + Σ x) / D, the variance (0 + Σ (x − mean)²) / D. -/
def twoPass {n : ℕ} (D eps : EReal) (x g b : Fin n → EReal) (c : Fin n) : EReal :=
  (x c - Ideal.div (0 + ∑ k, x k) D)
      * Ideal.rsqrt (Ideal.div (0 + ∑ k, (x k - Ideal.div (0 + ∑ k, x k) D) * (x k - Ideal.div (0 + ∑ k, x k) D)) D + eps)
      * g c + b c

/-- On a column of real numbers the two forms agree, with D the number of entries and inv its reciprocal; the scale g,
    the shift b and eps are arbitrary extended reals. -/
theorem twoPass_eq_onePass {n : ℕ} (N : ℝ) (hN : N ≠ 0) (hn : (n : ℝ) = N) (eps : EReal) (x g b : Fin n → EReal)
    (xr : Fin n → ℝ) (hx : ∀ k, x k = ((xr k : ℝ) : EReal)) (c : Fin n) :
    twoPass (N : EReal) eps x g b c = onePass ((1 / N : ℝ) : EReal) eps x g b c := by
  unfold twoPass onePass
  rw [mean_eq N hN, var_eq N hN hn x xr hx]

end LayerNormLaw

end
-- ==== Proof.NormBody.lean ====
/-
  What the kernel body stores at channel c, lane s of its block: the one-pass layer normalisation, over the 768
  channels, of the column  k ↦ x0[0, k, s] + x1[0, k, 0]  (the spatial block plus the projection's column, which does
  not depend on the lane), scaled by x2[c, 0] and shifted by x3[c, 0].
-/
import proofs.«144504_j8443905704449_2_alg».proof.Proof.Gen.KernelIdeal.Skeleton
import proofs.«144504_j8443905704449_2_alg».proof.Proof.LibLayerNorm
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.NormBody

open Cert.KernelIdeal Cert.KernelIdeal.Gen Idealize.ShloMosaic Idealize.ShloMosaic.ValueIdx

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The kernel's reciprocal of the channel count is, by the certificate's table of named constants, exactly 1/768. -/
theorem inv_768 : Named.named (F := Ideal) Cert.KernelIdeal.κ "inv_768" (φ := .f32) 0x3AAAAAAB#32 = ((1 / 768 : ℝ) : EReal) :=
  IdealRules.named_const.ideal_named_scalar _ _ _ _ rfl

/-- The residual sum at (k, s): the block's entry plus the projection column's entry k. -/
theorem resid_at (v0 : FVec Ideal S1x768x2048 .f32) (v2 : FVec Ideal S1x768x1 .f32) (k : Fin 768) (s : Fin 2048) :
    addf (shapeCast S768x2048 v0 shapeCasts_S1x768x2048_S768x2048)
        (broadcastTo S768x2048 (shapeCast S768x1 v2 shapeCasts_S1x768x1_S768x1) broadcasts_S768x1_S768x2048) (ix2 k s)
      = v0 (ix3 (0 : Fin 1) k s) + v2 (ix3 (0 : Fin 1) k (0 : Fin 1)) := by
  rw [addf_apply, shapeCast_1ab_ab_apply, broadcastTo_a1_ab_apply, shapeCast_1ab_ab_apply]

/-- The residual sum as the body forms it: the block with its leading unit axis dropped, plus the projection's column
    broadcast along the lanes. -/
def resid (v0 : FVec Ideal S1x768x2048 .f32) (v2 : FVec Ideal S1x768x1 .f32) : FVec Ideal S768x2048 .f32 :=
  addf (shapeCast S768x2048 v0 shapeCasts_S1x768x2048_S768x2048)
    (broadcastTo S768x2048 (shapeCast S768x1 v2 shapeCasts_S1x768x1_S768x1) broadcasts_S768x1_S768x2048)

theorem resid_apply (v0 : FVec Ideal S1x768x2048 .f32) (v2 : FVec Ideal S1x768x1 .f32) (k : Fin 768) (s : Fin 2048) :
    resid v0 v2 (ix2 k s) = v0 (ix3 (0 : Fin 1) k s) + v2 (ix3 (0 : Fin 1) k (0 : Fin 1)) := resid_at v0 v2 k s

/-- A sum over the channel axis, kept as a row [1, 2048]. -/
def rowSum (v : FVec Ideal S768x2048 .f32) : FVec Ideal S1x2048 .f32 :=
  shapeCast S1x2048 (multiReduction .add [0] S2048 v 0x00000000#32 reduces_S768x2048_S2048 (.inl rfl) rfl)
    shapeCasts_S2048_S1x2048

/-- At (0, s) it is the sum over the channels k of the operand at (k, s). -/
theorem rowSum_apply (v : FVec Ideal S768x2048 .f32) (u : Fin 1) (s : Fin 2048) :
    rowSum v (ix2 u s) = ∑ k : Fin 768, v (ix2 k s) := by
  unfold rowSum
  rw [shapeCast_a_1a_apply]
  refine (Ideal.multiReduction_add_single v 0x00000000#32 reduces_S768x2048_S2048 (.inl rfl) rfl (ix1 s)).trans ?_
  refine Finset.sum_congr rfl fun k _ => congrArg v (funext fun a => Fin.ext ?_)
  match a with
  | ⟨0, _⟩ => rfl
  | ⟨1, _⟩ => rfl

/-- The rest of the body, as a function of the residual sum v and the two parameter columns: the row of means
    (Σ v)·inv, the row of variances (Σ v²)·inv − mean², the row rsqrt(variance + eps), and
    ((v − mean)·that)·gamma + beta with the leading unit axis put back. -/
def normOf (v : FVec Ideal S768x2048 .f32) (v24 v28 : FVec Ideal S768x1 .f32) : FVec Ideal S1x768x2048 .f32 :=
  shapeCast S1x768x2048
    (addf
      (mulf
        (mulf
          (subf v (broadcastTo S768x2048 (mulf (rowSum v) (broadcast S1x2048 (Named.named κ "inv_768" 0x3AAAAAAB#32)))
            broadcasts_S1x2048_S768x2048))
          (broadcastTo S768x2048
            (rsqrt (addf
              (subf (mulf (rowSum (mulf v v)) (broadcast S1x2048 (Named.named κ "inv_768" 0x3AAAAAAB#32)))
                (mulf (mulf (rowSum v) (broadcast S1x2048 (Named.named κ "inv_768" 0x3AAAAAAB#32)))
                  (mulf (rowSum v) (broadcast S1x2048 (Named.named κ "inv_768" 0x3AAAAAAB#32)))))
              (broadcast S1x2048 (Scalar.ofBits .f32 0x3727C5AC#32))))
            broadcasts_S1x2048_S768x2048))
        (broadcastTo S768x2048 (shapeCast S768x1 v24 shapeCasts_S768x1_S768x1) broadcasts_S768x1_S768x2048))
      (broadcastTo S768x2048 (shapeCast S768x1 v28 shapeCasts_S768x1_S768x1) broadcasts_S768x1_S768x2048))
    shapeCasts_S768x2048_S1x768x2048

/-- The printed payload is that composition. -/
theorem pay_eq (x0 : Vec Ideal S1x768x2048 .f32) (x1 : Vec Ideal S1x768x1 .f32) (x2 x3 : Vec Ideal S768x1 .f32) :
    k0_pay1 (F := Ideal) x0 x1 x2 x3 = normOf (resid x0 x1) x2 x3 := rfl

/-! The layout operations of `normOf`, each read at coordinates. -/

theorem col_bcast_at (v : FVec Ideal S768x1 .f32) (c : Fin 768) (s : Fin 2048) :
    broadcastTo S768x2048 v broadcasts_S768x1_S768x2048 (ix2 c s) = v (ix2 c (0 : Fin 1)) :=
  broadcastTo_a1_ab_apply v _ c s

theorem row_bcast_at (v : FVec Ideal S1x2048 .f32) (c : Fin 768) (s : Fin 2048) :
    broadcastTo S768x2048 v broadcasts_S1x2048_S768x2048 (ix2 c s) = v (ix2 (0 : Fin 1) s) :=
  broadcastTo_1b_ab_apply v _ c s

theorem unit_back_at (v : FVec Ideal S768x2048 .f32) (u : Fin 1) (c : Fin 768) (s : Fin 2048) :
    shapeCast S1x768x2048 v shapeCasts_S768x2048_S1x768x2048 (ix3 u c s) = v (ix2 c s) :=
  shapeCast_ab_1ab_apply v _ u c s

theorem same_shape (v : FVec Ideal S768x1 .f32) : shapeCast S768x1 v shapeCasts_S768x1_S768x1 = v :=
  shapeCast_self v _

theorem rsqrt_at {sh : Shape} (v : FVec Ideal sh .f32) (i : sh.Idx) : rsqrt v i = Ideal.rsqrt (v i) := rfl

/-- `normOf` at (0, c, s), in terms of the residual sum's column at lane s. -/
theorem normOf_at (v : FVec Ideal S768x2048 .f32) (v24 v28 : FVec Ideal S768x1 .f32) (u : Fin 1) (c : Fin 768) (s : Fin 2048) :
    normOf v v24 v28 (ix3 u c s)
      = LayerNormLaw.onePass ((1 / 768 : ℝ) : EReal) (Ideal.ofBits .f32 0x3727C5AC#32)
          (fun k => v (ix2 k s)) (fun k => v24 (ix2 k (0 : Fin 1))) (fun k => v28 (ix2 k (0 : Fin 1))) c := by
  unfold normOf LayerNormLaw.onePass
  rw [unit_back_at]
  simp only [addf_apply, mulf_apply, subf_apply, col_bcast_at, row_bcast_at, same_shape, rsqrt_at, rowSum_apply,
    broadcast_apply, inv_768]
  rfl

/-- THE BODY AT AN INDEX.  What the body stores at (0, c, s) of its output block, from the four loaded blocks: the
    one-pass normalisation of the column k ↦ x0[0, k, s] + x1[0, k, 0], with the named reciprocal 1/768 and the float
    nearest 1e-5 as epsilon, scaled by x2[c, 0] and shifted by x3[c, 0]. -/
theorem stored_at (x0 : Vec Ideal S1x768x2048 .f32) (x1 : Vec Ideal S1x768x1 .f32) (x2 x3 : Vec Ideal S768x1 .f32)
    (u : Fin 1) (c : Fin 768) (s : Fin 2048) :
    k0_pay1 (F := Ideal) x0 x1 x2 x3 (ix3 u c s)
      = LayerNormLaw.onePass ((1 / 768 : ℝ) : EReal) (Ideal.ofBits .f32 0x3727C5AC#32)
          (fun k => x0 (ix3 (0 : Fin 1) k s) + x1 (ix3 (0 : Fin 1) k (0 : Fin 1)))
          (fun k => x2 (ix2 k (0 : Fin 1))) (fun k => x3 (ix2 k (0 : Fin 1))) c := by
  rw [pay_eq, normOf_at]
  simp only [resid_apply]

end Cert.KernelIdeal.NormBody

end
-- ==== Proof.NormBlocks.lean ====
/-
  From blocks to the array.  Grid point (b, h) of the 16 × 2 grid reads rows [b] × [0, 768) × [2048·h, 2048·h + 2048)
  of the spatial array, the projection's column of batch b, and the two parameter columns, and writes back the same
  rows of the output.  Every entry of a block depends only on its own lane's column, so what a point writes back is
  the restriction to its rows of ONE function of the four arrays; the 32 blocks tile the output, so the output array
  is that function.
-/
import proofs.«144504_j8443905704449_2_alg».proof.Proof.Gen.KernelIdeal.Frame
import proofs.«144504_j8443905704449_2_alg».proof.Proof.NormBody
import Idealize.ShloMosaic.Lib.Pipeline.Value

set_option maxRecDepth 16384

noncomputable section

namespace Cert.KernelIdeal.NormBlocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The output as one function of the four arrays the region finds: at (b, c, s) the one-pass normalisation of the
    column k ↦ X[b, k, s] + P[b, k, 0], scaled by g[c, 0] and shifted by bt[c, 0]. -/
def GK (X : S16x768x4096.Idx → EReal) (P : S16x768x1.Idx → EReal) (g bt : S768x1.Idx → EReal) : S16x768x4096.Idx → EReal := fun i =>
  LayerNormLaw.onePass ((1 / 768 : ℝ) : EReal) (Ideal.ofBits .f32 0x3727C5AC#32)
    (fun k : Fin 768 => X (ix3 (⟨(i 0).val, (i 0).isLt⟩ : Fin 16) k (⟨(i 2).val, (i 2).isLt⟩ : Fin 4096))
      + P (ix3 (⟨(i 0).val, (i 0).isLt⟩ : Fin 16) k (0 : Fin 1)))
    (fun k : Fin 768 => g (ix2 k (0 : Fin 1))) (fun k : Fin 768 => bt (ix2 k (0 : Fin 1))) (⟨(i 1).val, (i 1).isLt⟩ : Fin 768)

/-- The printed index maps, decided over the 32 grid points: the spatial input's block moves with the output's, the
    projection's follows the batch coordinate only, the parameter columns never move. -/
theorem idx_facts : ∀ t : Fin cfg0.N,
    win0_0.index t (0 : Fin 3) = win0_4.index t (0 : Fin 3) ∧ win0_0.index t (1 : Fin 3) = 0
    ∧ win0_0.index t (2 : Fin 3) = win0_4.index t (2 : Fin 3)
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 3) = 0 ∧ win0_4.index t (0 : Fin 3) ≤ 15 ∧ win0_4.index t (2 : Fin 3) ≤ 1 :=
  (by decide +kernel : ∀ t : Fin grid0.N, _)

/-- Every block (batch q0, half q2) of the output is some point's. -/
theorem idx_onto : ∀ (q0 : Fin 16) (q2 : Fin 2), ∃ t : Fin cfg0.N, win0_4.index t = ![q0.val, 0, q2.val] :=
  (by decide +kernel : ∀ (q0 : Fin 16) (q2 : Fin 2), ∃ t : Fin grid0.N, win0_4.index t = ![q0.val, 0, q2.val])

/-! The four input blocks at a point, each read where the array has it. -/

theorem read0 (c : Dev nD) (t : Fin cfg0.N) (x : S1x768x2048.Idx) (k : S16x768x4096.Idx)
    (h0 : (k 0).val = win0_0.index t (0 : Fin 3) * 1 + 1 * (x 0).val)
    (h1 : (k 1).val = win0_0.index t (1 : Fin 3) * 768 + 1 * (x 1).val)
    (h2 : (k 2).val = win0_0.index t (2 : Fin 3) * 2048 + 1 * (x 2).val) :
    (iblk m c 0 t : Vec Ideal S1x768x2048 .f32) x = V m c main_v22 k := by
  unfold iblk
  rw [View.read_apply]
  show V m c main_v22 _ = V m c main_v22 k
  refine congrArg (V m c main_v22) (funext fun a => Fin.ext ?_)
  match a with
  | ⟨0, _⟩ => exact h0.symm
  | ⟨1, _⟩ => exact h1.symm
  | ⟨2, _⟩ => exact h2.symm

theorem read1 (c : Dev nD) (t : Fin cfg0.N) (x : S1x768x1.Idx) (k : S16x768x1.Idx)
    (h0 : (k 0).val = win0_1.index t (0 : Fin 3) * 1 + 1 * (x 0).val)
    (h1 : (k 1).val = win0_1.index t (1 : Fin 3) * 768 + 1 * (x 1).val)
    (h2 : (k 2).val = win0_1.index t (2 : Fin 3) * 1 + 1 * (x 2).val) :
    (iblk m c 1 t : Vec Ideal S1x768x1 .f32) x = V m c main_v23 k := by
  unfold iblk
  rw [View.read_apply]
  show V m c main_v23 _ = V m c main_v23 k
  refine congrArg (V m c main_v23) (funext fun a => Fin.ext ?_)
  match a with
  | ⟨0, _⟩ => exact h0.symm
  | ⟨1, _⟩ => exact h1.symm
  | ⟨2, _⟩ => exact h2.symm

theorem read2 (c : Dev nD) (t : Fin cfg0.N) (x : S768x1.Idx) (k : S768x1.Idx)
    (h0 : (k 0).val = win0_2.index t (0 : Fin 2) * 768 + 1 * (x 0).val)
    (h1 : (k 1).val = win0_2.index t (1 : Fin 2) * 1 + 1 * (x 1).val) :
    (iblk m c 2 t : Vec Ideal S768x1 .f32) x = V m c main_v24 k := by
  unfold iblk
  rw [View.read_apply]
  show V m c main_v24 _ = V m c main_v24 k
  refine congrArg (V m c main_v24) (funext fun a => Fin.ext ?_)
  match a with
  | ⟨0, _⟩ => exact h0.symm
  | ⟨1, _⟩ => exact h1.symm

theorem read3 (c : Dev nD) (t : Fin cfg0.N) (x : S768x1.Idx) (k : S768x1.Idx)
    (h0 : (k 0).val = win0_3.index t (0 : Fin 2) * 768 + 1 * (x 0).val)
    (h1 : (k 1).val = win0_3.index t (1 : Fin 2) * 1 + 1 * (x 1).val) :
    (iblk m c 3 t : Vec Ideal S768x1 .f32) x = V m c main_v25 k := by
  unfold iblk
  rw [View.read_apply]
  show V m c main_v25 _ = V m c main_v25 k
  refine congrArg (V m c main_v25) (funext fun a => Fin.ext ?_)
  match a with
  | ⟨0, _⟩ => exact h0.symm
  | ⟨1, _⟩ => exact h1.symm

/-- AT ONE ENTRY of point t's block: the body's result at block index j is the whole-array function at the array index
    i that j sits at (block index × block size + j, axis by axis). -/
theorem point_eq (c : Dev nD) (t : Fin cfg0.N) (j : S1x768x2048.Idx) (i : S16x768x4096.Idx)
    (h0 : (i 0).val = win0_4.index t (0 : Fin 3) * 1 + 1 * (j 0).val)
    (h1 : (i 1).val = win0_4.index t (1 : Fin 3) * 768 + 1 * (j 1).val)
    (h2 : (i 2).val = win0_4.index t (2 : Fin 3) * 2048 + 1 * (j 2).val) :
    k0_pay1 (F := Ideal) (iblk m c 0 t) (iblk m c 1 t) (iblk m c 2 t) (iblk m c 3 t) j
      = GK (V m c main_v22) (V m c main_v23) (V m c main_v24) (V m c main_v25) i := by
  obtain ⟨u, c', s, rfl⟩ : ∃ (u : Fin 1) (c' : Fin 768) (s : Fin 2048), j = ix3 u c' s := ⟨j 0, j 1, j 2, eq_ix3 j⟩
  obtain ⟨e00, e01, e02, e10, e11, e12, e20, e21, e30, e31, e41, e40, e42⟩ := idx_facts t
  have hu : u.val = 0 := by omega
  have hj0 : (ix3 u c' s (0 : Fin 3)).val = u.val := rfl
  have hj1 : (ix3 u c' s (1 : Fin 3)).val = c'.val := rfl
  have hj2 : (ix3 u c' s (2 : Fin 3)).val = s.val := rfl
  rw [hj0] at h0; rw [hj1] at h1; rw [hj2] at h2
  rw [NormBody.stored_at]
  unfold GK
  have hc : (⟨(i 1).val, (i 1).isLt⟩ : Fin 768) = c' := Fin.ext (by show (i 1).val = c'.val; omega)
  refine congr (congr (congr (congrArg (LayerNormLaw.onePass _ _) (funext fun k => ?_)) (funext fun k => ?_))
    (funext fun k => ?_)) hc.symm
  · rw [read0 m c t (ix3 (0 : Fin 1) k s) (ix3 (⟨(i 0).val, (i 0).isLt⟩ : Fin 16) k (⟨(i 2).val, (i 2).isLt⟩ : Fin 4096))
        (by show (i 0).val = win0_0.index t (0 : Fin 3) * 1 + 1 * 0; omega)
        (by show k.val = win0_0.index t (1 : Fin 3) * 768 + 1 * k.val; omega)
        (by show (i 2).val = win0_0.index t (2 : Fin 3) * 2048 + 1 * s.val; omega),
      read1 m c t (ix3 (0 : Fin 1) k (0 : Fin 1)) (ix3 (⟨(i 0).val, (i 0).isLt⟩ : Fin 16) k (0 : Fin 1))
        (by show (i 0).val = win0_1.index t (0 : Fin 3) * 1 + 1 * 0; omega)
        (by show k.val = win0_1.index t (1 : Fin 3) * 768 + 1 * k.val; omega)
        (by show 0 = win0_1.index t (2 : Fin 3) * 1 + 1 * 0; omega)]
  · exact read2 m c t (ix2 k (0 : Fin 1)) (ix2 k (0 : Fin 1))
        (by show k.val = win0_2.index t (0 : Fin 2) * 768 + 1 * k.val; omega)
        (by show 0 = win0_2.index t (1 : Fin 2) * 1 + 1 * 0; omega)
  · exact read3 m c t (ix2 k (0 : Fin 1)) (ix2 k (0 : Fin 1))
        (by show k.val = win0_3.index t (0 : Fin 2) * 768 + 1 * k.val; omega)
        (by show 0 = win0_3.index t (1 : Fin 2) * 1 + 1 * 0; omega)

/-- WHAT POINT t WRITES BACK is block t of that function of the arrays as the region finds them. -/
theorem flushed_eq (c : Dev nD) (t : Fin cfg0.N) :
    (dats m 0 c).flushed 4 t = ((cfg0.win 4).blk t).view.read (Elt Ideal)
      (GK (V m c main_v22) (V m c main_v23) (V m c main_v24) (V m c main_v25)) := by
  show (cfg0.win 4).cut (grid0.coords t) ((dats m 0 c).after 4 t) = _
  rw [after0_4]
  unfold out0_4
  rw [View.canon_unit_zero hz3]
  simp only [View.ld_unit_zero (S := S1x768x2048) hz3, View.ld_unit_zero (S := S1x768x1) hz3, View.ld_unit_zero (S := S768x1) hz2]
  funext j
  exact point_eq m c t j (((cfg0.win 4).blk t).view.emb j) rfl rfl rfl

/-- An index of the output array is in point t's block iff each coordinate is in the block's range on its axis. -/
theorem mem_blk (t : Fin cfg0.N) (i : S16x768x4096.Idx) :
    i ∈ ((cfg0.win 4).blk t).view.set ↔ ∀ a : Fin 3, win0_4.index t a * S1x768x2048.size a ≤ (i a).val
      ∧ (i a).val < win0_4.index t a * S1x768x2048.size a + S1x768x2048.size a := by
  show i ∈ ((View.whole main_v26).slice (win0_4.rect t)).set ↔ _
  rw [View.set_slice_whole, Rect.mem_set_unit]
  exact Iff.rfl

/-- The blocks tile the output: the point that covers (b, c, s) is (b, s / 2048). -/
theorem cover (i : S16x768x4096.Idx) : ∃ t : Fin cfg0.N, (cfg0.win 4).flush t = true ∧ i ∈ ((cfg0.win 4).blk t).view.set := by
  have hi0 : (i 0).val < 16 := (i 0).isLt
  have hi1 : (i 1).val < 768 := (i 1).isLt
  have hi2 : (i 2).val < 4096 := (i 2).isLt
  obtain ⟨t, ht⟩ := idx_onto ⟨(i 0).val, hi0⟩ ⟨(i 2).val / 2048, by omega⟩
  have q0 : win0_4.index t (0 : Fin 3) = (i 0).val := congrFun ht 0
  have q1 : win0_4.index t (1 : Fin 3) = 0 := congrFun ht 1
  have q2 : win0_4.index t (2 : Fin 3) = (i 2).val / 2048 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 768 ≤ (i 1).val ∧ (i 1).val < win0_4.index t (1 : Fin 3) * 768 + 768; omega
  | ⟨2, _⟩ => show win0_4.index t (2 : Fin 3) * 2048 ≤ (i 2).val ∧ (i 2).val < win0_4.index t (2 : Fin 3) * 2048 + 2048; omega

/-- THE OUTPUT ARRAY after the region: that function of the four arrays as the region finds them. -/
theorem final (c : Dev nD) :
    (dats m 0 c).arrAt 4 cfg0.N = GK (V m c main_v22) (V m c main_v23) (V m c main_v24) (V m c main_v25) :=
  (dats m 0 c).arrAt_eq_of_cover 4 _ (fun t _ => flushed_eq m c t) cover

end Cert.KernelIdeal.NormBlocks

end
-- ==== Proof.NormSpec.lean ====
/-
  The result, as one function.  For a spatial array X : [16, 768, 4096], a projection P : [16, 768] and parameter
  vectors g, b : [768], the entry at (batch bi, channel c, position s) is the one-pass layer normalisation over the
  768 channels of the column k ↦ X[bi, k, s] + P[bi, k], with the exact reciprocal 1/768 and the float nearest 1e-5
  as epsilon, scaled by g[c] and shifted by b[c].
-/
import proofs.«144504_j8443905704449_2_alg».proof.Proof.LibLayerNorm
import Idealize.ShloMosaic.Lib.ValueIdx

noncomputable section

namespace Cert.Norm

open Idealize.ShloMosaic Idealize.ShloMosaic.ValueIdx

/-- The entry at literal coordinates. -/
def lnAt (X : (⟨3, ![16, 768, 4096]⟩ : Shape).Idx → EReal) (P : (⟨2, ![16, 768]⟩ : Shape).Idx → EReal)
    (g b : (⟨1, ![768]⟩ : Shape).Idx → EReal) (bi : Fin 16) (c : Fin 768) (s : Fin 4096) : EReal :=
  LayerNormLaw.onePass ((1 / 768 : ℝ) : EReal) (Ideal.ofBits .f32 0x3727C5AC#32)
    (fun k => X (ix3 bi k s) + P (ix2 bi k)) (fun k => g (ix1 k)) (fun k => b (ix1 k)) c

/-- The whole [16, 768, 4096] array. -/
def G3 (X : (⟨3, ![16, 768, 4096]⟩ : Shape).Idx → EReal) (P : (⟨2, ![16, 768]⟩ : Shape).Idx → EReal)
    (g b : (⟨1, ![768]⟩ : Shape).Idx → EReal) : (⟨3, ![16, 768, 4096]⟩ : Shape).Idx → EReal := fun i =>
  lnAt X P g b ⟨(i 0).val, (i 0).isLt⟩ ⟨(i 1).val, (i 1).isLt⟩ ⟨(i 2).val, (i 2).isLt⟩

theorem G3_ix3 (X : (⟨3, ![16, 768, 4096]⟩ : Shape).Idx → EReal) (P : (⟨2, ![16, 768]⟩ : Shape).Idx → EReal)
    (g b : (⟨1, ![768]⟩ : Shape).Idx → EReal) (bi : Fin 16) (c : Fin 768) (s : Fin 4096) :
    G3 X P g b (ix3 bi c s) = lnAt X P g b bi c s := rfl

end Cert.Norm

end
-- ==== Proof.KernelRun.lean ====
/-
  The idealized kernel's run, read.  Before the region the host computes the projection chain and reshapes the four
  operands ([16,768,64,64] → [16,768,4096]; the projection [16,768] → [16,768,1]; gamma and beta [768] → [768,1]);
  after it the one host operation reshapes the region's output back to [16,768,64,64].  So the result is that reshape
  of the specification G3 of the reshaped spatial input, the projection, gamma and beta.  The projection chain is the
  same sequence of host operations as the reference's, and is carried as the reference's stage of the same arguments.
-/
import proofs.«144504_j8443905704449_2_alg».proof.Proof.NormBlocks
import proofs.«144504_j8443905704449_2_alg».proof.Proof.NormSpec
import proofs.«144504_j8443905704449_2_alg».proof.Proof.Gen.ReferenceIdeal.Read
import Idealize.ShloMosaic.Lib.StableHlo.Run

noncomputable section

namespace Cert.KernelIdeal.NormRun

open Cert.KernelIdeal Cert.KernelIdeal.Gen Idealize.ShloMosaic Idealize.ShloMosaic.TcCoe Idealize.ShloMosaic.ValueIdx
open Idealize.SL.Sem Idealize.ShloMosaic.StableHlo Cert.KernelIdeal.NormBlocks

variable (m : (ℓ : Loc nD τ sig) → Buf (Elt Ideal) ℓ) (ρ : Dev nD → PrngReg)

/-! A trailing unit axis added by a reshape. -/

/-- An [a, b] array cast to [a, b, 1] reads, at (i, j, u), the operand at (i, j). -/
theorem cast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An [a] array cast to [a, 1] reads, at (i, u), the operand at i. -/
theorem cast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! What the region finds in its four operand arrays. -/

theorem in22 (c : Dev nD) : (V m c main_v22 : S16x768x4096.Idx → EReal)
    = shapeCast S16x768x4096 (m ((c : Thread nD τ).loc main_arg0)) shapeCasts_S16x768x64x64_S16x768x4096 := by
  show StableHlo.after hostOps0 (fun b => m (c, b)) (Proc.devRef .tc main_v22) = _
  after_results
  rfl

set_option maxHeartbeats 2000000 in
/-- The projection operand: the reshape of the dense-layer chain of the conditioning — the reference's stage 23 of the
    same nine arguments, the two programs applying the same host operations. -/
theorem in23 (c : Dev nD) : (V m c main_v23 : S16x768x1.Idx → EReal)
    = shapeCast S16x768x1 (Cert.ReferenceIdeal.Read.val_main_v23 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) shapeCasts_S16x768_S16x768x1 := by
  show StableHlo.after hostOps0 (fun b => m (c, b)) (Proc.devRef .tc main_v23) = _
  after_results_simp <;> rfl

theorem in24 (c : Dev nD) : (V m c main_v24 : S768x1.Idx → EReal)
    = shapeCast S768x1 (m ((c : Thread nD τ).loc main_arg10)) shapeCasts_S768_S768x1 := by
  show StableHlo.after hostOps0 (fun b => m (c, b)) (Proc.devRef .tc main_v24) = _
  after_results
  rfl

theorem in25 (c : Dev nD) : (V m c main_v25 : S768x1.Idx → EReal)
    = shapeCast S768x1 (m ((c : Thread nD τ).loc main_arg11)) shapeCasts_S768_S768x1 := by
  show StableHlo.after hostOps0 (fun b => m (c, b)) (Proc.devRef .tc main_v25) = _
  after_results
  rfl

/-- On reshaped operands the blockwise function is the specification: the trailing unit axes only rename indices. -/
theorem GK_reshaped (X : S16x768x4096.Idx → EReal) (P : S16x768.Idx → EReal) (g bt : S768.Idx → EReal) :
    GK X (shapeCast S16x768x1 P shapeCasts_S16x768_S16x768x1) (shapeCast S768x1 g shapeCasts_S768_S768x1)
        (shapeCast S768x1 bt shapeCasts_S768_S768x1) = Cert.Norm.G3 X P g bt := by
  funext i
  unfold GK Cert.Norm.G3 Cert.Norm.lnAt
  simp only [cast_ab_ab1_apply, cast_a_a1_apply]

/-- The region's output array: the specification of the reshaped spatial input, the projection, gamma and beta. -/
theorem region_out (c : Dev nD) :
    (dats m 0 c).arrAt 4 cfg0.N = Cert.Norm.G3 (shapeCast S16x768x4096 (m ((c : Thread nD τ).loc main_arg0)) shapeCasts_S16x768x64x64_S16x768x4096)
      (Cert.ReferenceIdeal.Read.val_main_v23 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) := by
  rw [NormBlocks.final, in22, in23, in24, in25, GK_reshaped]

/-- The result buffer after the host's last reshape. -/
theorem result_eq (c : Dev nD) :
    Pipeline.afterTail₀ cfgs (dats m) 0 (V0 m) [hostOps1] c main_v27
      = shapeCast S16x768x64x64 (Cert.Norm.G3 (shapeCast S16x768x4096 (m ((c : Thread nD τ).loc main_arg0)) shapeCasts_S16x768x64x64_S16x768x4096)
          (Cert.ReferenceIdeal.Read.val_main_v23 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)))
          shapeCasts_S16x768x4096_S16x768x64x64 := by
  unfold Pipeline.afterTail₀
  show StableHlo.after hostOps1 _ (Proc.devRef .tc main_v27) = _
  after_results
  rw [show Pipeline.withArrays (cfgs 0).spec c (V0 m c) (fun w => (dats m 0 c).arrAt w (cfgs 0).N) (Proc.tc.devRef main_v26)
        = (dats m 0 c).arrAt 4 cfg0.N from
      Pipeline.withArrays_arr spec0 launch0.win.arr_inj c (V0 m c) (fun w => (dats m 0 c).arrAt w cfg0.N) 4,
    region_out]
  rfl

/-- THE RUN: every weakly fair execution of the idealized kernel's @main terminates with the result at the reshape of
    the specification, and the twelve arguments unchanged. -/
theorem run : θ_run defs (onTc (τ := τ) (main (F := Ideal))) ⟨m, fun _ => 0, ρ⟩ (fun r => ∀ c : Dev nD,
      r.2.mem ((c.tc : Thread nD τ).loc main_v27)
        = shapeCast S16x768x64x64 (Cert.Norm.G3 (shapeCast S16x768x4096 (m ((c : Thread nD τ).loc main_arg0)) shapeCasts_S16x768x64x64_S16x768x4096)
            (Cert.ReferenceIdeal.Read.val_main_v23 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)))
            shapeCasts_S16x768x4096_S16x768x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).2 main_v27 (Pipeline.mem_restRefs_of main_v27 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.KernelIdeal.NormRun

end
-- ==== Proof.RefStages.lean ====
/-
  The reference, read at an index.  Before its final reshape the reference's result at (batch b, channel c, position s)
  is the two-pass layer normalisation, over the 768 channels, of the column
      k ↦ X[b, k, s] + proj[b, k]
  (X the spatial input reshaped to [16, 768, 4096], proj the value/out/output projection chain of the conditioning),
  scaled by gamma[c] and shifted by beta[c].  The transposes to and from [16, 4096, 768] only rename coordinates.
-/
import proofs.«144504_j8443905704449_2_alg».proof.Proof.Gen.ReferenceIdeal.Read
import proofs.«144504_j8443905704449_2_alg».proof.Proof.LibLayerNorm

noncomputable section

namespace Cert.ReferenceIdeal.Norm

open Cert.ReferenceIdeal Cert.ReferenceIdeal.Read Idealize.ShloMosaic Idealize.ShloMosaic.ValueIdx

variable (x0 : (⟨S16x768x64x64, .f32⟩ : BufTy).Contents (Elt Ideal)) (x1 : (⟨S16x1024, .f32⟩ : BufTy).Contents (Elt Ideal)) (x2 : (⟨S768x1024, .f32⟩ : BufTy).Contents (Elt Ideal)) (x3 : (⟨S768, .f32⟩ : BufTy).Contents (Elt Ideal)) (x4 : (⟨S2304x768, .f32⟩ : BufTy).Contents (Elt Ideal)) (x5 : (⟨S2304, .f32⟩ : BufTy).Contents (Elt Ideal)) (x6 : (⟨S768x768, .f32⟩ : BufTy).Contents (Elt Ideal)) (x7 : (⟨S768, .f32⟩ : BufTy).Contents (Elt Ideal)) (x8 : (⟨S768x768, .f32⟩ : BufTy).Contents (Elt Ideal)) (x9 : (⟨S768, .f32⟩ : BufTy).Contents (Elt Ideal)) (x10 : (⟨S768, .f32⟩ : BufTy).Contents (Elt Ideal)) (x11 : (⟨S768, .f32⟩ : BufTy).Contents (Elt Ideal))

/-- The column that is normalised at batch b, position s: the reshaped spatial input plus the projection, channel by channel. -/
def col (b : Fin 16) (s : Fin 4096) : Fin 768 → EReal := fun k =>
  val_main_v0 (F := Ideal) x0 (ix3 b k s) + val_main_v23 (F := Ideal) x1 x2 x3 x4 x5 x6 x7 x8 x9 (ix2 b k)

/-! The coordinate renamings along the way. -/

theorem i1 (b : Fin 16) (s : Fin 4096) (k : Fin 768) : idx_main_v1 (ix3 b s k) = ix3 b k s := funext fun a => Fin.ext (by match a with | ⟨0, _⟩ => rfl | ⟨1, _⟩ => rfl | ⟨2, _⟩ => rfl)
theorem i24 (b : Fin 16) (s : Fin 4096) (k : Fin 768) : idx_main_v24 (idx_main_v25 (ix3 b s k)) = ix2 b k :=
  funext fun a => Fin.ext (by match a with | ⟨0, _⟩ => rfl | ⟨1, _⟩ => rfl)
theorem i27 (b : Fin 16) (s : Fin 4096) (u : Fin 1) (k : Fin 768) : idx_main_v27 (idx_main_v28 (ix3 b s u)) k = ix3 b s k := funext fun a => Fin.ext (by match a with | ⟨0, _⟩ => rfl | ⟨1, _⟩ => rfl | ⟨2, _⟩ => rfl)
theorem i34 (b : Fin 16) (s : Fin 4096) (u : Fin 1) (k : Fin 768) : idx_main_v34 (idx_main_v35 (ix3 b s u)) k = ix3 b s k := funext fun a => Fin.ext (by match a with | ⟨0, _⟩ => rfl | ⟨1, _⟩ => rfl | ⟨2, _⟩ => rfl)
theorem i31 (b : Fin 16) (s : Fin 4096) (k : Fin 768) : idx_main_v31 (ix3 b s k) = ix3 b s (0 : Fin 1) := funext fun a => Fin.ext (by match a with | ⟨0, _⟩ => rfl | ⟨1, _⟩ => rfl | ⟨2, _⟩ => rfl)
theorem i38 (b : Fin 16) (s : Fin 4096) (k : Fin 768) : idx_main_v38 (ix3 b s k) = ix3 b s (0 : Fin 1) := funext fun a => Fin.ext (by match a with | ⟨0, _⟩ => rfl | ⟨1, _⟩ => rfl | ⟨2, _⟩ => rfl)
theorem i43 (b : Fin 16) (s : Fin 4096) (k : Fin 768) : idx_main_v43 (ix3 b s k) = ix3 b s (0 : Fin 1) := funext fun a => Fin.ext (by match a with | ⟨0, _⟩ => rfl | ⟨1, _⟩ => rfl | ⟨2, _⟩ => rfl)
theorem i45 (b : Fin 16) (s : Fin 4096) (k : Fin 768) : idx_main_v45 (idx_main_v46 (ix3 b s k)) = ix1 k :=
  funext fun a => Fin.ext (by match a with | ⟨0, _⟩ => rfl)
theorem i48 (b : Fin 16) (s : Fin 4096) (k : Fin 768) : idx_main_v48 (idx_main_v49 (ix3 b s k)) = ix1 k :=
  funext fun a => Fin.ext (by match a with | ⟨0, _⟩ => rfl)
theorem i51 (b : Fin 16) (c : Fin 768) (s : Fin 4096) : idx_main_v51 (ix3 b c s) = ix3 b s c := funext fun a => Fin.ext (by match a with | ⟨0, _⟩ => rfl | ⟨1, _⟩ => rfl | ⟨2, _⟩ => rfl)

/-- The residual sum, in the reference's [16, 4096, 768] arrangement, at (b, s, k) is the column's entry k. -/
theorem resid_at (b : Fin 16) (s : Fin 4096) (k : Fin 768) :
    val_main_v26 (F := Ideal) x0 x1 x2 x3 x4 x5 x6 x7 x8 x9 (ix3 b s k) = col x0 x1 x2 x3 x4 x5 x6 x7 x8 x9 b s k := by
  rw [val_main_v26_apply, val_main_v1_apply, val_main_v25_apply, val_main_v24_apply, i1, i24]
  rfl

/-- The reference's result before its final reshape, at (b, c, s): the two-pass normalisation of the column at (b, s),
    with divisor the float 768.0 and epsilon the float nearest 1e-5, scaled by gamma and shifted by beta at channel c. -/
theorem result_at (b : Fin 16) (c : Fin 768) (s : Fin 4096) :
    val_main_v51 (F := Ideal) x0 x1 x2 x3 x4 x5 x6 x7 x8 x9 x10 x11 (ix3 b c s)
      = LayerNormLaw.twoPass (Ideal.ofBits .f32 0x44400000#32) (Ideal.ofBits .f32 0x3727C5AC#32)
          (col x0 x1 x2 x3 x4 x5 x6 x7 x8 x9 b s) (fun k => x10 (ix1 k)) (fun k => x11 (ix1 k)) c := by
  unfold LayerNormLaw.twoPass
  simp only [val_main_v51_apply, i51, val_main_v50_apply, val_main_v47_apply, val_main_v49_apply, val_main_v48_apply, i48,
    val_main_v46_apply, val_main_v45_apply, i45, val_main_v44_apply, val_main_v39_apply, val_main_v38_apply, i38,
    val_main_v43_apply, i43, val_main_v42_apply, val_main_v41_apply, val_main_v40_apply, val_main_cst_3_apply,
    val_main_v37_apply, val_main_v36_apply, val_main_cst_2_apply, val_main_v35_apply, val_main_v34_apply, i34,
    val_main_cst_1_apply, val_main_v33_apply, val_main_v32_apply, val_main_v31_apply, i31, val_main_v30_apply,
    val_main_v28_apply, val_main_v27_apply, i27, val_main_cst_apply, val_main_v29_apply, val_main_cst_0_apply, resid_at,
    Ideal.addf_def, Ideal.subf_def, Ideal.mulf_def, Ideal.hostDivf_def, Ideal.hostUnary_rsqrt_def, Ideal.ofBits_def,
    Ideal.ofBits_zero_f32]

end Cert.ReferenceIdeal.Norm

end
-- ==== Proof.LibRealEntries.lean ====
/-
  Arrays of extended reals all of whose entries are real numbers.

  The property passes through everything a chain of dense layers is made of: reading an array at
  re-arranged indices (transposes, slices, reshapes, broadcasts are all of the form j ↦ x (f j)), entrywise
  sums, and a dot_general, whose entry is a finite sum of products of entries.  It is what a precondition
  "every input is finite" gives for the inputs: an entry whose absolute value is below +∞ is neither +∞ nor −∞.
-/
import Idealize.ShloMosaic.PureOps.Ideal.Laws
import Idealize.ShloMosaic.Lib.ReduceAll
import Idealize.ShloMosaic.Lib.ValueIdx

noncomputable section

namespace RealEntries

open Idealize.ShloMosaic

/-- Every entry of the array is a real number (neither infinity). -/
def IsReal {ι : Type} (v : ι → EReal) : Prop := ∀ i, ∃ r : ℝ, v i = (r : EReal)

/-- Reading a real-valued array at re-arranged indices gives a real-valued array. -/
theorem IsReal.comp {ι κ : Type} {v : ι → EReal} (h : IsReal v) (f : κ → ι) : IsReal (fun j => v (f j)) :=
  fun j => h (f j)

/-- The entrywise sum of two real-valued arrays is real-valued. -/
theorem IsReal.add {ι : Type} {v w : ι → EReal} (hv : IsReal v) (hw : IsReal w) : IsReal (fun i => v i + w i) := fun i => by
  obtain ⟨a, ha⟩ := hv i
  obtain ⟨b, hb⟩ := hw i
  exact ⟨a + b, by show v i + w i = _; rw [ha, hb, EReal.coe_add]⟩

/-- A finite sum of real numbers read in the extended reals is a real number. -/
theorem exists_real_sum {κ : Type} (s : Finset κ) (f : κ → EReal) (h : ∀ k, ∃ r : ℝ, f k = (r : EReal)) :
    ∃ r : ℝ, ∑ k ∈ s, f k = (r : EReal) := by
  classical
  refine Finset.induction_on s ⟨0, by simp⟩ ?_
  intro a s ha ⟨r, hr⟩
  obtain ⟨b, hb⟩ := h a
  exact ⟨b + r, by rw [Finset.sum_insert ha, hr, hb, EReal.coe_add]⟩

/-- An array whose entry at i is a finite sum over k of products of entries of two real-valued arrays is real-valued. -/
theorem isReal_sum_mul {ι κ α β : Type} [Fintype κ] {l : α → EReal} {r : β → EReal} (hl : IsReal l) (hr : IsReal r)
    (f : ι → κ → α) (g : ι → κ → β) : IsReal (fun i => ∑ k, l (f i k) * r (g i k)) := fun i =>
  exists_real_sum _ _ fun k => by
    obtain ⟨a, ha⟩ := hl (f i k)
    obtain ⟨b, hb⟩ := hr (g i k)
    exact ⟨a * b, by show l (f i k) * r (g i k) = _; rw [ha, hb, EReal.coe_mul]⟩

variable {s t : Shape} {φ : FTy}

theorem IsReal.addf {v w : FVec Ideal s φ} (hv : IsReal v) (hw : IsReal w) : IsReal (addf v w) := hv.add hw

theorem IsReal.transpose {v : s.Idx → EReal} (hv : IsReal v) (perm : List (Fin s.rank)) (h : s.Transposes perm t) :
    IsReal (transpose t perm v h) := fun j => hv _

theorem IsReal.broadcastInDim {v : s.Idx → EReal} (hv : IsReal v) (dims : Fin s.rank → Fin t.rank) (h : s.BroadcastsInDim t dims) :
    IsReal (broadcastInDim t dims h v) := fun j => hv _

theorem IsReal.extractStridedSlice {v : s.Idx → EReal} (hv : IsReal v) (off : Fin s.rank → Nat) (h : s.Slices off t) :
    IsReal (extractStridedSlice t off v h) := fun j => hv _

theorem IsReal.shapeCast {v : s.Idx → EReal} (hv : IsReal v) (h : s.ShapeCasts t) : IsReal (shapeCast t v h) := fun j => hv _

/-- The host's dot_general of two real-valued arrays is real-valued: each entry is the sum, over the contracted
    index set, of products of entries. -/
theorem IsReal.dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral d prec l r : FVec Ideal so φ₁) := fun j => by
  simp only [Host.dotGeneral]
  rw [Ideal.dotGeneral_apply]
  exact isReal_sum_mul hl hr (fun j k => d.lhsIdx j k) (fun j k => d.rhsIdx j k) j

/-- An extended real whose absolute value is below +∞ is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One conjunct of a "finite inputs" precondition: where the reduction by `and` of the entrywise comparison
    |x| < +∞ (the word 0x7F800000 broadcast from a scalar) is 1, every entry of x is a real number. -/
theorem isReal_of_all_lt_inf {axes : List (Fin s.rank)} {u : Shape} [Subsingleton t.Idx] (x : FVec Ideal s .f32)
    (bound : FVec Ideal s .f32) (hb : ∀ i, bound i = Ideal.ofBits .f32 0x7F800000#32)
    (init : u.Idx → BitVec 1) (h : s.ReducesTo axes t) (hu : 0 < u.numel) (j : t.Idx)
    (e : Host.reduce IntOp.andi (cmpf .olt (Host.absf x) bound) init h hu j = 1#1) : IsReal x := fun i => by
  have hi := Host.reduce_andi_all _ init h hu j e i
  have htop : Ideal.ofBits .f32 0x7F800000#32 = ⊤ := by simp [Ideal.ofBits, Ideal.ieee]
  rw [ValueIdx.cmpf_apply, hb i, htop] at hi
  apply exists_real_of_abs_lt_top
  have h2 : Ideal.cmp .olt (max (x i) (-(x i))) ⊤ = 1#1 := hi
  by_contra hne
  simp [Ideal.cmp, hne] at h2

end RealEntries

end
-- ==== Proof.RefOnePass.lean ====
/-
  On finite inputs the reference computes the one-pass formula.

  The projection chain (four dense layers: a product with a transposed weight matrix plus a bias row, the second one on
  the value rows of the packed in-projection) of real-valued inputs is real-valued, so every column
  k ↦ X[b, k, s] + proj[b, k] is a column of real numbers, and on such a column the two-pass normalisation the
  reference computes (divide by the float 768.0, which is the real 768) is the one-pass normalisation with the exact
  reciprocal 1/768.
-/
import proofs.«144504_j8443905704449_2_alg».proof.Proof.RefStages
import proofs.«144504_j8443905704449_2_alg».proof.Proof.LibRealEntries
import proofs.«144504_j8443905704449_2_alg».proof.Proof.NormSpec

noncomputable section

namespace Cert.ReferenceIdeal.Norm

open Cert.ReferenceIdeal Cert.ReferenceIdeal.Gen Cert.ReferenceIdeal.Read Idealize.ShloMosaic Idealize.ShloMosaic.ValueIdx RealEntries

variable (x0 : (⟨S16x768x64x64, .f32⟩ : BufTy).Contents (Elt Ideal)) (x1 : (⟨S16x1024, .f32⟩ : BufTy).Contents (Elt Ideal)) (x2 : (⟨S768x1024, .f32⟩ : BufTy).Contents (Elt Ideal)) (x3 : (⟨S768, .f32⟩ : BufTy).Contents (Elt Ideal)) (x4 : (⟨S2304x768, .f32⟩ : BufTy).Contents (Elt Ideal)) (x5 : (⟨S2304, .f32⟩ : BufTy).Contents (Elt Ideal)) (x6 : (⟨S768x768, .f32⟩ : BufTy).Contents (Elt Ideal)) (x7 : (⟨S768, .f32⟩ : BufTy).Contents (Elt Ideal)) (x8 : (⟨S768x768, .f32⟩ : BufTy).Contents (Elt Ideal)) (x9 : (⟨S768, .f32⟩ : BufTy).Contents (Elt Ideal)) (x10 : (⟨S768, .f32⟩ : BufTy).Contents (Elt Ideal)) (x11 : (⟨S768, .f32⟩ : BufTy).Contents (Elt Ideal))

/-- The projection chain of real-valued inputs is real-valued. -/
theorem proj_isReal (h1 : IsReal x1) (h2 : IsReal x2) (h3 : IsReal x3) (h4 : IsReal x4) (h5 : IsReal x5) (h6 : IsReal x6)
    (h7 : IsReal x7) (h8 : IsReal x8) (h9 : IsReal x9) :
    IsReal (val_main_v23 (F := Ideal) x1 x2 x3 x4 x5 x6 x7 x8 x9) := by
  unfold val_main_v23 val_main_v22 val_main_v21 val_main_v20 val_main_v19 val_main_v18 val_main_v17 val_main_v16
    val_main_v15 val_main_v14 val_main_v13 val_main_v12 val_main_v11 val_main_v10 val_main_v9 val_main_v8 val_main_v7
    val_main_v6 val_main_v5 val_main_v4 val_main_v3 val_main_v2
  repeat' first
    | assumption
    | refine IsReal.addf ?_ ?_
    | refine IsReal.dotGeneral _ _ ?_ ?_
    | refine IsReal.transpose ?_ _ _
    | refine IsReal.broadcastInDim ?_ _ _
    | refine IsReal.extractStridedSlice ?_ _ _

/-- So every column that is normalised consists of real numbers. -/
theorem col_real (h0 : IsReal x0) (hP : IsReal (val_main_v23 (F := Ideal) x1 x2 x3 x4 x5 x6 x7 x8 x9))
    (b : Fin 16) (s : Fin 4096) :
    ∃ xr : Fin 768 → ℝ, ∀ k, col x0 x1 x2 x3 x4 x5 x6 x7 x8 x9 b s k = ((xr k : ℝ) : EReal) := by
  have hX : IsReal (val_main_v0 (F := Ideal) x0) := fun j => h0 _
  have hk : ∀ k, ∃ r : ℝ, col x0 x1 x2 x3 x4 x5 x6 x7 x8 x9 b s k = (r : EReal) := fun k => by
    obtain ⟨p, hp⟩ := hX (ix3 b k s)
    obtain ⟨q, hq⟩ := hP (ix2 b k)
    exact ⟨p + q, by unfold col; rw [hp, hq, EReal.coe_add]⟩
  exact ⟨fun k => (hk k).choose, fun k => (hk k).choose_spec⟩

/-- The float 768.0 is the real number 768. -/
theorem ofBits_768 : Ideal.ofBits .f32 0x44400000#32 = ((768 : ℝ) : EReal) := by
  simp [Ideal.ofBits, Ideal.ieee, -EReal.coe_mul]; norm_num

/-- ON REAL-VALUED INPUTS the reference's result before its final reshape, at (b, c, s), is the one-pass normalisation
    of the column at (b, s) with the exact reciprocal 1/768. -/
theorem result_onePass (h0 : IsReal x0) (h1 : IsReal x1) (h2 : IsReal x2) (h3 : IsReal x3) (h4 : IsReal x4) (h5 : IsReal x5)
    (h6 : IsReal x6) (h7 : IsReal x7) (h8 : IsReal x8) (h9 : IsReal x9) (b : Fin 16) (c : Fin 768) (s : Fin 4096) :
    val_main_v51 (F := Ideal) x0 x1 x2 x3 x4 x5 x6 x7 x8 x9 x10 x11 (ix3 b c s)
      = LayerNormLaw.onePass ((1 / 768 : ℝ) : EReal) (Ideal.ofBits .f32 0x3727C5AC#32)
          (col x0 x1 x2 x3 x4 x5 x6 x7 x8 x9 b s) (fun k => x10 (ix1 k)) (fun k => x11 (ix1 k)) c := by
  obtain ⟨xr, hxr⟩ := col_real x0 x1 x2 x3 x4 x5 x6 x7 x8 x9 h0 (proj_isReal x1 x2 x3 x4 x5 x6 x7 x8 x9 h1 h2 h3 h4 h5 h6 h7 h8 h9) b s
  rw [result_at, ofBits_768]
  exact LayerNormLaw.twoPass_eq_onePass 768 (by norm_num) (by norm_num) _ _ _ _ xr hxr c

/-- ON REAL-VALUED INPUTS the reference's result is the final reshape of the specification of the reshaped spatial input,
    the projection, gamma and beta. -/
theorem result_eq (h0 : IsReal x0) (h1 : IsReal x1) (h2 : IsReal x2) (h3 : IsReal x3) (h4 : IsReal x4) (h5 : IsReal x5)
    (h6 : IsReal x6) (h7 : IsReal x7) (h8 : IsReal x8) (h9 : IsReal x9) :
    val_main_v52 (F := Ideal) x0 x1 x2 x3 x4 x5 x6 x7 x8 x9 x10 x11
      = shapeCast S16x768x64x64 (Cert.Norm.G3 (shapeCast S16x768x4096 x0 shapeCasts_S16x768x64x64_S16x768x4096)
          (val_main_v23 (F := Ideal) x1 x2 x3 x4 x5 x6 x7 x8 x9) x10 x11) shapeCasts_S16x768x4096_S16x768x64x64 := by
  unfold val_main_v52
  refine congrArg (fun A => shapeCast S16x768x64x64 A shapeCasts_S16x768x4096_S16x768x64x64) (funext fun i => ?_)
  obtain ⟨b, c, s, rfl⟩ : ∃ (b : Fin 16) (c : Fin 768) (s : Fin 4096), i = ix3 b c s := ⟨i 0, i 1, i 2, eq_ix3 i⟩
  rw [Cert.Norm.G3_ix3]
  exact result_onePass x0 x1 x2 x3 x4 x5 x6 x7 x8 x9 x10 x11 h0 h1 h2 h3 h4 h5 h6 h7 h8 h9 b c s

end Cert.ReferenceIdeal.Norm

end
-- ==== Proof.InputsReal.lean ====
/-
  The precondition, decoded.  `finite_inputs` is the conjunction, over the twelve argument arrays, of
  "all entries have absolute value below +∞"; where it is all ones, every entry of every argument is a real number.
-/
import proofs.«144504_j8443905704449_2_alg».proof.Pre_finite_inputs
import proofs.«144504_j8443905704449_2_alg».proof.Proof.LibRealEntries

noncomputable section

namespace Cert.Pre_finite_inputs.Decode

open Cert.Pre_finite_inputs Cert.Pre_finite_inputs.Facts Idealize.ShloMosaic RealEntries

variable [Cert.Pre_finite_inputs.Facts]

/-- A rank-0 array has one index. -/
instance : Subsingleton S_.Idx := ⟨fun _ _ => funext fun d => d.elim0⟩

/-- Where the precondition's function is 1, each argument array is real-valued. -/
theorem inputs_real (a0 : FVec Ideal S16x768x64x64 .f32) (a1 : FVec Ideal S16x1024 .f32) (a2 : FVec Ideal S768x1024 .f32) (a3 : FVec Ideal S768 .f32) (a4 : FVec Ideal S2304x768 .f32) (a5 : FVec Ideal S2304 .f32) (a6 : FVec Ideal S768x768 .f32) (a7 : FVec Ideal S768 .f32) (a8 : FVec Ideal S768x768 .f32) (a9 : FVec Ideal S768 .f32) (a10 : FVec Ideal S768 .f32) (a11 : FVec Ideal S768 .f32)
    (h : fn (F := Ideal) a0 a1 a2 a3 a4 a5 a6 a7 a8 a9 a10 a11 = fun _ => 1#1) :
    IsReal a0 ∧ IsReal a1 ∧ IsReal a2 ∧ IsReal a3 ∧ IsReal a4 ∧ IsReal a5 ∧ IsReal a6 ∧ IsReal a7 ∧ IsReal a8 ∧ IsReal a9 ∧ IsReal a10 ∧ IsReal a11 := by
  have h0 := congrFun h ValueIdx.ix0
  unfold fn fn_part1 fn_part2 fn_part3 at h0
  simp only [Idealize.ShloMosaic.andi, IntOp.andi_eq_one] at h0
  obtain ⟨⟨⟨⟨⟨⟨⟨⟨⟨⟨⟨e0, e1⟩, e2⟩, e3⟩, e4⟩, e5⟩, e6⟩, e7⟩, e8⟩, e9⟩, e10⟩, e11⟩ := h0
  exact ⟨isReal_of_all_lt_inf a0 _ (fun _ => rfl) _ _ _ _ e0,
    isReal_of_all_lt_inf a1 _ (fun _ => rfl) _ _ _ _ e1,
    isReal_of_all_lt_inf a2 _ (fun _ => rfl) _ _ _ _ e2,
    isReal_of_all_lt_inf a3 _ (fun _ => rfl) _ _ _ _ e3,
    isReal_of_all_lt_inf a4 _ (fun _ => rfl) _ _ _ _ e4,
    isReal_of_all_lt_inf a5 _ (fun _ => rfl) _ _ _ _ e5,
    isReal_of_all_lt_inf a6 _ (fun _ => rfl) _ _ _ _ e6,
    isReal_of_all_lt_inf a7 _ (fun _ => rfl) _ _ _ _ e7,
    isReal_of_all_lt_inf a8 _ (fun _ => rfl) _ _ _ _ e8,
    isReal_of_all_lt_inf a9 _ (fun _ => rfl) _ _ _ _ e9,
    isReal_of_all_lt_inf a10 _ (fun _ => rfl) _ _ _ _ e10,
    isReal_of_all_lt_inf a11 _ (fun _ => rfl) _ _ _ _ e11⟩

end Cert.Pre_finite_inputs.Decode

end
-- ==== Proof.lean ====
/-
  A layer normalisation over 768 channels of (spatial input + a projection of the conditioning), as a kernel
  against its reference, at the extended reals.

  Both programs first compute the same projection proj : [16, 768] on the host: four dense layers (a product with a
  transposed weight matrix plus a bias row), the second on the value rows of the packed in-projection.  The kernel then
  normalises each column k ↦ X[b, k, s] + proj[b, k] in ONE pass — mean (Σ x)·(1/768), variance (Σ x²)·(1/768) − mean²,
  with the reciprocal named exactly 1/768 — where the reference does it in TWO passes, dividing by the float 768.0:
  mean (Σ x)/768, variance (Σ (x − mean)²)/768.  Dividing by 768 is multiplying by 1/768 on every extended real; the two
  variances agree on a column of REAL numbers (expand the square, cancel 768·mean² against mean·Σ x), and that is where
  the precondition is used: finite inputs make the projection, hence every column, real-valued.  The rest — rsqrt of
  variance + epsilon (the same float on both sides), the scale by gamma, the shift by beta — is the same expression.

  The kernel's grid point (b, h) handles rows [b] × [0,768) × [2048h, 2048h+2048); each entry depends only on its own
  column, so the 32 blocks are restrictions of one function and tile the output.  The reference's transposes to and from
  [16, 4096, 768] only rename coordinates.
-/
import proofs.«144504_j8443905704449_2_alg».proof.Defs
import proofs.«144504_j8443905704449_2_alg».proof.Proof.Gen.Kernel
import proofs.«144504_j8443905704449_2_alg».proof.Proof.Gen.Kernel.Frame
import proofs.«144504_j8443905704449_2_alg».proof.Proof.Gen.KernelIdeal
import proofs.«144504_j8443905704449_2_alg».proof.Proof.Gen.KernelIdeal.Frame
import proofs.«144504_j8443905704449_2_alg».proof.Proof.Gen.ReferenceIdeal
import proofs.«144504_j8443905704449_2_alg».proof.Proof.Gen.ReferenceIdeal.Run
import proofs.«144504_j8443905704449_2_alg».proof.Proof.Gen.ReferenceIdeal.Read
import proofs.«144504_j8443905704449_2_alg».proof.Proof.Gen.Pre_finite_inputs
import proofs.«144504_j8443905704449_2_alg».proof.Proof.KernelRun
import proofs.«144504_j8443905704449_2_alg».proof.Proof.RefOnePass
import proofs.«144504_j8443905704449_2_alg».proof.Proof.InputsReal
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two places where the kernel's reciprocal of the channel count is read as exactly 1/768. -/
theorem preserves : Cert.preserves_Kernel_KernelIdeal :=
  ⟨IdealRules.named_const.statement Cert.KernelIdeal.κ "inv_768" .f32 0x3AAAAAAB#32 ((1 / 768 : ℝ) : EReal) rfl,
    IdealRules.named_const.statement Cert.KernelIdeal.κ "inv_768" .f32 0x3AAAAAAB#32 ((1 / 768 : ℝ) : EReal) rfl⟩

/-- From memories agreeing on the twelve arguments, all finite, both programs end with the same array: the reshape to
    [16,768,64,64] of the one-pass normalisation of (reshaped spatial input + projection), scaled and shifted. -/
theorem algebraic : Cert.algebraic_KernelIdeal_ReferenceIdeal := by
  intro m ρ m' ρ' hpre hagree
  refine ⟨_, Cert.KernelIdeal.NormRun.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5, r6, r7, r8, r9, -, -⟩ :=
    Cert.Pre_finite_inputs.Decode.inputs_real _ _ _ _ _ _ _ _ _ _ _ _ (hpre c)
  obtain ⟨a0, a1, a2, a3, a4, a5, a6, a7, a8, a9, a10, a11⟩ := hagree c
  rw [Cert.ReferenceIdeal.Read.val_main_v52_eq, a0, a1, a2, a3, a4, a5, a6, a7, a8, a9, a10, a11]
  exact Cert.ReferenceIdeal.Norm.result_eq _ _ _ _ _ _ _ _ _ _ _ _ r0 r1 r2 r3 r4 r5 r6 r7 r8 r9

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
